-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S32768x1024, .f32⟩
  | .hbm, ⟨5, _⟩ => ⟨S1x1024, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.Payload.lean ====
/-
  The kernel body's value at an index.

  At each grid point the body holds a block `v0 : [1024, 1024]` of rows of `x`, the whole transposed weight
  `v2 : [1024, 1024]` and the bias as one row `v5 : [1, 1024]`. It multiplies `v0` by `v2` into a zero accumulator,
  repeats the bias row down the 1024 rows of the block, and adds. At the extended reals the narrowing of `v0` to bf16
  is the identity, so entry `(p, q)` of what it stores is `∑ k, v0 (p, k) · v2 (k, q) + v5 (0, q)`.
-/
import proofs.«134365_j49074296324665_2_alg».proof.Proof.Gen.KernelIdeal.Skeleton
import proofs.«134365_j49074296324665_2_alg».proof.Proof.LibPlainProduct
import proofs.«134365_j49074296324665_2_alg».proof.Proof.LibRepeat
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The stored block at `(p, q)`: row `p` of the block of `x` against column `q` of the transposed weight, plus
    entry `q` of the bias row. -/
theorem stored_apply (v0 : FVec Ideal S1024x1024 .f32) (v2 : FVec Ideal S1024x1024 .bf16) (v5 : FVec Ideal S1x1024 .f32)
    (p q : Fin 1024) :
    k0_pay1 (F := Ideal) v0 v2 v5 (ix2 p q) = (∑ k : Fin 1024, v0 (ix2 p k) * v2 (ix2 k q)) + v5 (ix2 (0 : Fin 1) q) := by
  unfold k0_pay1
  show matmul (F := Ideal) dot_S1024x1024_S1024x1024_S1024x1024_1_0_0_1_n_n none (truncf (F := Ideal) .bf16 v0 bitsLt_bf16_f32)
        (shapeCast S1024x1024 v2 shapeCasts_S1024x1024_S1024x1024) (constant (F := Ideal) S1024x1024 .f32 0x00000000#32) (ix2 p q)
      + broadcastTo S1024x1024 (shapeCast S1x1024 v5 shapeCasts_S1x1024_S1x1024) broadcasts_S1x1024_S1024x1024 (ix2 p q) = _
  rw [shapeCast_self, shapeCast_self]
  refine congrArg₂ (· + ·) ?_ ?_
  · exact Cert.PlainProduct.matmul_plain_apply dot_S1024x1024_S1024x1024_S1024x1024_1_0_0_1_n_n rfl none
      (truncf (F := Ideal) .bf16 v0 bitsLt_bf16_f32) v2 p q
  · exact Cert.Lib.Repeat.rowRepeat_apply v5 broadcasts_S1x1024_S1024x1024 p q

end Cert.KernelIdeal.Payload

end
-- ==== Proof.Affine.lean ====
/-
  The function both programs compute: an affine map applied to every row of a matrix.

  For `x : [32768, 1024]`, a weight `w : [1024, 1024]` stored output-major (row `q` of `w` holds the coefficients of
  output `q`) and a bias `b : [1024]`, entry `(p, q)` of the result is `∑ k, x (p, k) · w (q, k) + b q`: the product of
  `x` with the transpose of `w`, plus `b` laid along every row. Over the extended reals, where a sum has no order and
  a change of float format is the identity, this is all that either program says.
-/
import Idealize.ShloMosaic.Lib.ValueIdx

noncomputable section

open scoped BigOperators

namespace Cert.Affine

open Idealize.ShloMosaic Idealize.ShloMosaic.ValueIdx

/-- Entry `(p, q)`: row `p` of `x` against row `q` of `w`, plus entry `q` of `b`. -/
def entry (x : (⟨2, ![32768, 1024]⟩ : Shape).Idx → EReal) (w : (⟨2, ![1024, 1024]⟩ : Shape).Idx → EReal)
    (b : (⟨1, ![1024]⟩ : Shape).Idx → EReal) (p : Fin 32768) (q : Fin 1024) : EReal :=
  (∑ k : Fin 1024, x (ix2 p k) * w (ix2 q k)) + b (ix1 q)

/-- The whole result: `x · wᵀ + b`, index by index. -/
def affine (x : (⟨2, ![32768, 1024]⟩ : Shape).Idx → EReal) (w : (⟨2, ![1024, 1024]⟩ : Shape).Idx → EReal)
    (b : (⟨1, ![1024]⟩ : Shape).Idx → EReal) : (⟨2, ![32768, 1024]⟩ : Shape).Idx → EReal :=
  fun i => entry x w b (i 0) (i 1)

/-- At an index given by its coordinates the result is that entry. -/
theorem affine_ix2 (x : (⟨2, ![32768, 1024]⟩ : Shape).Idx → EReal) (w : (⟨2, ![1024, 1024]⟩ : Shape).Idx → EReal)
    (b : (⟨1, ![1024]⟩ : Shape).Idx → EReal) (p : Fin 32768) (q : Fin 1024) :
    affine x w b (ix2 p q) = entry x w b p q := rfl

end Cert.Affine

end
-- ==== Proof.Tiles.lean ====
/-
  From the blocks the kernel writes to the whole result array.

  The grid has 32 points. Point `t` stages rows `1024·t … 1024·t + 1023` of `x` (all 1024 columns), the whole
  transposed weight and the whole bias row, and writes back rows `1024·t … 1024·t + 1023` of the result. The transposed
  weight and the bias row are made before the kernel starts: the weight array the kernel sees at `(k, q)` is `w (q, k)`,
  and the bias row at `(0, q)` is `b q`. So the block point `t` writes is the block of `x · wᵀ + b` at those rows, and
  since row `r` lies in the block of point `r / 1024`, the 32 blocks fill the array: it ends holding `x · wᵀ + b`.
-/
import proofs.«134365_j49074296324665_2_alg».proof.Proof.Gen.KernelIdeal.Value
import proofs.«134365_j49074296324665_2_alg».proof.Proof.Payload
import proofs.«134365_j49074296324665_2_alg».proof.Proof.Affine
import Idealize.ShloMosaic.Lib.StableHlo.Run

noncomputable section

open scoped BigOperators

namespace Cert.KernelIdeal.AffineValue

open Cert.KernelIdeal Cert.KernelIdeal.Gen Idealize.ShloMosaic Idealize.ShloMosaic.TcCoe Idealize.SL.Sem
open Idealize.ShloMosaic.ValueIdx Idealize.ShloMosaic.StableHlo Cert.Affine
open Idealize.ShloMosaic.Pipeline (Dat)

variable (m : (ℓ : Loc nD τ sig) → Buf (Elt Ideal) ℓ) (ρ : Dev nD → PrngReg)

/-! ## The arrays made before the kernel starts -/

/-- The weight array the kernel stages is the transpose of `w` (its narrowing to bf16 is the identity here). -/
theorem weight_array (c : Dev nD) : (V m c main_v1 : S1024x1024.Idx → EReal)
    = truncf (F := Ideal) .bf16 (transpose S1024x1024 [1, 0] (m ((c : Thread nD τ).loc main_arg1)) transposes_S1024x1024_S1024x1024_1_0) bitsLt_bf16_f32 := by
  dsimp only [Gen.V, Gen.hostOps0]; after_results

/-- At `(k, q)` it holds `w (q, k)`. -/
theorem weight_apply (c : Dev nD) (k q : Fin 1024) :
    (V m c main_v1 : S1024x1024.Idx → EReal) (ix2 k q) = (m ((c : Thread nD τ).loc main_arg1) : S1024x1024.Idx → EReal) (ix2 q k) := by
  rw [weight_array]
  exact transpose_apply [1, 0] _ transposes_S1024x1024_S1024x1024_1_0 (ix2 k q) (ix2 q k) (fun b => match b with
    | ⟨0, _⟩ => rfl
    | ⟨1, _⟩ => rfl)

/-- The bias array the kernel stages is `b` laid out as one row. -/
theorem bias_array (c : Dev nD) : (V m c main_v2 : S1x1024.Idx → EReal)
    = shapeCast S1x1024 (m ((c : Thread nD τ).loc main_arg2)) shapeCasts_S1024_S1x1024 := by
  dsimp only [Gen.V, Gen.hostOps0]; after_results; rfl

/-- At `(0, q)` it holds `b q`: the row-major position of `(0, q)` in one row of 1024 is `q`. -/
theorem bias_apply (c : Dev nD) (q : Fin 1024) :
    (V m c main_v2 : S1x1024.Idx → EReal) (ix2 (0 : Fin 1) q) = (m ((c : Thread nD τ).loc main_arg2) : S1024.Idx → EReal) (ix1 q) := by
  rw [bias_array]
  exact shapeCast_apply _ shapeCasts_S1024_S1x1024 (ix2 (0 : Fin 1) q) (ix1 q) (by
    rw [Shape.rowMajor_val_two, Shape.rowMajor_val_one]; show q.val = 0 * 1024 + q.val; omega)

/-! ## Where each window's block sits -/

/-- Decided over the 32 points: the blocks of `x` and of the result are block `t` along the rows and block 0 along the
    columns; the weight and the bias are always their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the block of `x` at point `t` is `x (1024·t + p, k)`. -/
theorem x_block (c : Dev nD) (t : Fin cfg0.N) (p k : Fin 1024) (h : t.val * 1024 + p.val < 32768) :
    iblk m c 0 t (ix2 p k) = (m ((c : Thread nD τ).loc main_arg0) : S32768x1024.Idx → EReal) (ix2 ⟨t.val * 1024 + p.val, h⟩ k) := by
  show V m c main_arg0 (((cfg0.win 0).blk t).view.emb (ix2 p k)) = _
  rw [V_main_arg0]
  refine congrArg _ (funext fun a => Fin.ext ?_)
  obtain ⟨e0, e1, -⟩ := index_facts t
  match a with
  | ⟨0, _⟩ => show win0_0.index t (0 : Fin 2) * 1024 + 1 * p.val = t.val * 1024 + p.val; omega
  | ⟨1, _⟩ => show win0_0.index t (1 : Fin 2) * 1024 + 1 * k.val = k.val; omega

/-- Entry `(k, q)` of the weight block, at every point, is `w (q, k)`. -/
theorem w_block (c : Dev nD) (t : Fin cfg0.N) (k q : Fin 1024) :
    iblk m c 1 t (ix2 k q) = (m ((c : Thread nD τ).loc main_arg1) : S1024x1024.Idx → EReal) (ix2 q k) := by
  refine Eq.trans ?_ (weight_apply m c k q)
  show V m c main_v1 (((cfg0.win 1).blk t).view.emb (ix2 k q)) = V m c main_v1 (ix2 k q)
  refine congrArg _ (funext fun a => Fin.ext ?_)
  obtain ⟨-, -, e2, e3, -⟩ := index_facts t
  match a with
  | ⟨0, _⟩ => show win0_1.index t (0 : Fin 2) * 1024 + 1 * k.val = k.val; omega
  | ⟨1, _⟩ => show win0_1.index t (1 : Fin 2) * 1024 + 1 * q.val = q.val; omega

/-- Entry `(0, q)` of the bias block, at every point, is `b q`. -/
theorem b_block (c : Dev nD) (t : Fin cfg0.N) (q : Fin 1024) :
    iblk m c 2 t (ix2 (0 : Fin 1) q) = (m ((c : Thread nD τ).loc main_arg2) : S1024.Idx → EReal) (ix1 q) := by
  refine Eq.trans ?_ (bias_apply m c q)
  show V m c main_v2 (((cfg0.win 2).blk t).view.emb (ix2 (0 : Fin 1) q)) = V m c main_v2 (ix2 (0 : Fin 1) q)
  refine congrArg _ (funext fun a => Fin.ext ?_)
  obtain ⟨-, -, -, -, e4, e5, -⟩ := index_facts t
  match a with
  | ⟨0, _⟩ => show win0_2.index t (0 : Fin 2) * 1 + 1 * 0 = 0; omega
  | ⟨1, _⟩ => show win0_2.index t (1 : Fin 2) * 1024 + 1 * q.val = q.val; omega

/-- Entry `(p, q)` of the result's block at point `t` is entry `(1024·t + p, q)` of the array. -/
theorem out_emb (t : Fin cfg0.N) (p q : Fin 1024) (h : t.val * 1024 + p.val < 32768) :
    ((cfg0.win 3).blk t).view.emb (ix2 p q) = ix2 ⟨t.val * 1024 + p.val, h⟩ q := by
  refine funext fun a => Fin.ext ?_
  obtain ⟨-, -, -, -, -, -, e6, e7⟩ := index_facts t
  match a with
  | ⟨0, _⟩ => show win0_3.index t (0 : Fin 2) * 1024 + 1 * p.val = t.val * 1024 + p.val; omega
  | ⟨1, _⟩ => show win0_3.index t (1 : Fin 2) * 1024 + 1 * q.val = q.val; omega

/-! ## What a point writes back -/

theorem zero_offsets : (![0, 0] : Fin 2 → Nat) = fun _ => 0 := funext fun a => by fin_cases a <;> rfl

/-- Point `t` writes back the block of `x · wᵀ + b` at its rows. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S1024x1024) zero_offsets, View.ld_unit_zero (S := S1x1024) zero_offsets]
  funext j
  obtain ⟨p, q, rfl⟩ : ∃ (p q : Fin 1024), j = ix2 p q := ⟨j 0, j 1, eq_ix2 j⟩
  have hN : grid0.N = 32 := N_0
  have ht : t.val < grid0.N := t.isLt
  have h : t.val * 1024 + p.val < 32768 := by have := p.isLt; omega
  show k0_pay1 (F := Ideal) (iblk m c 0 t) (iblk m c 1 t) (iblk m c 2 t) (ix2 p q)
    = affine (m ((c : Thread nD τ).loc main_arg0)) (m ((c : Thread nD τ).loc main_arg1)) (m ((c : Thread nD τ).loc main_arg2))
        (((cfg0.win 3).blk t).view.emb (ix2 p q))
  refine (Payload.stored_apply (iblk m c 0 t) (iblk m c 1 t) (iblk m c 2 t) p q).trans ?_
  refine Eq.trans ?_ (congrArg (affine _ _ _) (out_emb t p q h).symm)
  show _ = entry _ _ _ ⟨t.val * 1024 + p.val, h⟩ q
  unfold entry
  exact congrArg₂ (· + ·)
    (Finset.sum_congr rfl fun k _ => congrArg₂ (· * ·) (x_block m c t p k h) (w_block m c t k q))
    (b_block m c t q)

/-! ## The blocks fill the array -/

/-- An index is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Row `r` is in the block of point `r / 1024`. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : grid0.N = 32 := N_0
  obtain ⟨t, ht⟩ : ∃ t : Fin cfg0.N, t.val = (i 0).val / 1024 := ⟨⟨(i 0).val / 1024, by show _ < grid0.N; omega⟩, rfl⟩
  obtain ⟨-, -, -, -, -, -, e6, e7⟩ := index_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run is `x · wᵀ + b`. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The run -/

/-- Every weakly fair execution of the kernel's program ends with the result array at `x · wᵀ + b` of the arguments as
    launched, and the arguments unchanged. -/
theorem run : θ_run defs (onTc (τ := τ) (main (F := Ideal))) ⟨m, fun _ => 0, ρ⟩ fun r => ∀ c : Dev nD,
      r.2.mem ((c : Thread nD τ).loc main_v3)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AffineValue

end
-- ==== Proof.ReferenceAffine.lean ====
/-
  The reference computes the affine map.

  Its five operations are: transpose `w`; multiply `x` by the transpose, contracting the second axis of `x` with the
  first of the transpose; lay `b` out as one row; repeat the row down all 32768 rows; add. Read at `(p, q)`: the
  product is `∑ k, x (p, k) · wᵀ (k, q)`, the transpose at `(k, q)` is `w (q, k)`, and the repeated row is `b q`.
-/
import proofs.«134365_j49074296324665_2_alg».proof.Proof.Gen.ReferenceIdeal.Read
import proofs.«134365_j49074296324665_2_alg».proof.Proof.Affine

noncomputable section

open scoped BigOperators

namespace Cert.ReferenceIdeal.AffineValue

open Cert.ReferenceIdeal Cert.ReferenceIdeal.Read Idealize.ShloMosaic Idealize.ShloMosaic.ValueIdx Cert.Affine

/-- The reference's last stage, as a function of the three arguments, is `x · wᵀ + b`. -/
theorem reference_eq (x0 : (⟨S32768x1024, .f32⟩ : BufTy).Contents (Elt Ideal)) (x1 : (⟨S1024x1024, .f32⟩ : BufTy).Contents (Elt Ideal))
    (x2 : (⟨S1024, .f32⟩ : BufTy).Contents (Elt Ideal)) :
    val_main_v4 (F := Ideal) x0 x1 x2 = affine x0 x1 x2 := by
  funext i
  obtain ⟨p, q, rfl⟩ : ∃ (p : Fin 32768) (q : Fin 1024), i = ix2 p q := ⟨i 0, i 1, eq_ix2 i⟩
  -- the left factor of term `k` sits at `(p, k)` of `x`
  have el : ∀ k : Fin 1024, lidx_main_v1 (ix2 p q) k = ix2 p k := fun k =>
    funext fun a => Fin.ext (by match a with | ⟨0, _⟩ => rfl | ⟨1, _⟩ => rfl)
  -- the right factor sits at `(k, q)` of the transpose, which is `(q, k)` of `w`
  have er : ∀ k : Fin 1024, idx_main_v0 (ridx_main_v1 (ix2 p q) k) = ix2 q k := fun k =>
    funext fun a => Fin.ext (by match a with | ⟨0, _⟩ => rfl | ⟨1, _⟩ => rfl)
  -- the bias is read at `q`, whatever the row
  have eb : idx_main_v2 (idx_main_v3 (ix2 p q)) = ix1 q :=
    funext fun a => Fin.ext (by match a with | ⟨0, _⟩ => rfl)
  rw [val_main_v4_apply, val_main_v1_apply, val_main_v3_apply, val_main_v2_apply, affine_ix2]
  simp only [val_main_v0_apply, el, er, eb]
  rfl

end Cert.ReferenceIdeal.AffineValue

end
-- ==== Proof.lean ====
/-
  A fully connected layer, `data · Wᵀ + b`, as a tiled kernel and as a plain matrix expression: the two compute the same
  function over the extended reals.

  The inputs are `data : [32768, 1024]`, a weight `W : [1024, 1024]` stored output-major, and a bias `b : [1024]`. The
  reference transposes `W`, multiplies, and adds `b` along every row. The kernel's program transposes `W` (and narrows
  it to bf16) and lays `b` out as one row before the kernel starts; the kernel then walks the rows of `data` in 32
  blocks of 1024 rows, and for each block multiplies it (narrowed to bf16) by the transposed weight into a zero
  accumulator, repeats the bias row down the block, adds, and writes the block of the result back.

  Over the extended reals a change of float format is the identity and a matrix product is the plain sum of products, so
  entry `(p, q)` of either result is `∑ k, data (p, k) · W (q, k) + b q` (`Cert.Affine.affine`). The kernel's side: the
  body's value at an index (Proof/Payload.lean), then the blocks assembled into the array (Proof/Tiles.lean). The
  reference's side: its five operations read at an index (Proof/ReferenceAffine.lean). No law beyond reading each
  operation at an index is needed, so the finiteness of the inputs is never used. The ideal pass rewrote nothing in the
  kernel, so that the idealized kernel is the kernel's sanctioned idealization holds trivially. The three frames are
  the generated frame runs, the reference's its generated run with the result dropped.
-/
import proofs.«134365_j49074296324665_2_alg».proof.Defs
import proofs.«134365_j49074296324665_2_alg».proof.Proof.Gen.Kernel
import proofs.«134365_j49074296324665_2_alg».proof.Proof.Gen.Kernel.Frame
import proofs.«134365_j49074296324665_2_alg».proof.Proof.Gen.KernelIdeal
import proofs.«134365_j49074296324665_2_alg».proof.Proof.Gen.KernelIdeal.Frame
import proofs.«134365_j49074296324665_2_alg».proof.Proof.Gen.KernelIdeal.Value
import proofs.«134365_j49074296324665_2_alg».proof.Proof.Gen.ReferenceIdeal
import proofs.«134365_j49074296324665_2_alg».proof.Proof.Gen.ReferenceIdeal.Run
import proofs.«134365_j49074296324665_2_alg».proof.Proof.Gen.ReferenceIdeal.Read
import proofs.«134365_j49074296324665_2_alg».proof.Proof.Gen.Pre_finite_inputs
import proofs.«134365_j49074296324665_2_alg».proof.Proof.Tiles
import proofs.«134365_j49074296324665_2_alg».proof.Proof.ReferenceAffine
import Idealize.ShloMosaic.Adequacy
import Idealize.ShloMosaic.Init

noncomputable section

namespace Cert.Proof

open Idealize.ShloMosaic Idealize.ShloMosaic.TcCoe Idealize.SL.Sem

/-- The kernel's program as printed runs to the end and leaves its three arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the arguments both programs end with the result at `data · Wᵀ + b` of those arguments:
    the kernel's by its blocks filling the array, the reference's by its operations read at an index. -/
theorem algebraic : Cert.algebraic_KernelIdeal_ReferenceIdeal := by
  intro m ρ m' ρ' _ hagree
  refine ⟨_, Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.AffineValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
